-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x512 : Shape := ⟨3, ![32, 512, 512]⟩
abbrev S_ : Shape := ⟨0, ![]⟩

class Facts : Prop where
  bcast_S_S32x512x512 : S_.BroadcastsInDim S32x512x512 (![] : Fin 0 → Fin S32x512x512.rank)
  reducesTo_S32x512x512_S_d0_1_2 : S32x512x512.ReducesTo [0, 1, 2] S_
  h_S_ : 0 < S_.numel

variable [Facts]

def fn {F : FTy → Type} [FloatOps F] (main_arg0 : FVec F S32x512x512 .f32) (main_arg1 : FVec F S32x512x512 .f32) : IVec S_ 1 :=
  let main_v0 : FVec F S32x512x512 .f32 := Host.absf main_arg0
  let main_cst : FVec F S_ .f32 := constant S_ .f32 0x7F800000#32
  let main_v1 : FVec F S32x512x512 .f32 := broadcastInDim S32x512x512 ![] bcast_S_S32x512x512 main_cst
  let main_v2 : IVec S32x512x512 1 := cmpf .olt main_v0 main_v1
  let main_c : IVec S_ 1 := constantI S_ 1 1#1
  let main_v3 : IVec S_ 1 := (fun x v => Host.reduce IntOp.andi x v reducesTo_S32x512x512_S_d0_1_2 h_S_) main_v2 main_c
  let main_v4 : FVec F S32x512x512 .f32 := Host.absf main_arg1
  let main_cst_0 : FVec F S_ .f32 := constant S_ .f32 0x7F800000#32
  let main_v5 : FVec F S32x512x512 .f32 := broadcastInDim S32x512x512 ![] bcast_S_S32x512x512 main_cst_0
  let main_v6 : IVec S32x512x512 1 := cmpf .olt main_v4 main_v5
  let main_c_1 : IVec S_ 1 := constantI S_ 1 1#1
  let main_v7 : IVec S_ 1 := (fun x v => Host.reduce IntOp.andi x v reducesTo_S32x512x512_S_d0_1_2 h_S_) main_v6 main_c_1
  let main_v8 : IVec S_ 1 := andi main_v3 main_v7
  main_v8
-- ==== Kernel.lean ====
abbrev S32x512x512 : Shape := ⟨3, ![32, 512, 512]⟩
abbrev S32x512x2048 : Shape := ⟨3, ![32, 512, 2048]⟩
abbrev S1x512x512 : Shape := ⟨3, ![1, 512, 512]⟩
abbrev S1x512x2048 : Shape := ⟨3, ![1, 512, 2048]⟩
abbrev S512x512 : Shape := ⟨2, ![512, 512]⟩
abbrev S512 : Shape := ⟨1, ![512]⟩
abbrev S512x1 : Shape := ⟨2, ![512, 1]⟩

abbrev nBuf : Space → Nat
  | .hbm => 4
  | .vmem => 8
  | .smem => 0
  | _ => 0

abbrev bufTy : (tb : Table) → Fin (tcTables nBuf tb) → BufTy
  | .hbm, ⟨0, _⟩ => ⟨S32x512x512, .f32⟩
  | .hbm, ⟨1, _⟩ => ⟨S32x512x512, .f32⟩
  | .hbm, ⟨2, _⟩ => ⟨S32x512x2048, .f32⟩
  | .hbm, ⟨3, _⟩ => ⟨S32x512x2048, .f32⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S1x512x2048, .f32⟩
  | .local _ .vmem, ⟨5, _⟩ => ⟨S1x512x2048, .f32⟩
  | .local _ .vmem, ⟨6, _⟩ => ⟨S1x512x2048, .f32⟩
  | .local _ .vmem, ⟨7, _⟩ => ⟨S1x512x2048, .f32⟩
  | _, _ => ⟨S32x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  bitsLt_bf16_f32 : FTy.bits .bf16 < FTy.bits .f32
  reduces_S512x512_S512 : S512x512.Reduces [1] S512
  shapeCasts_S512_S512x1 : S512.ShapeCasts S512x1
  broadcasts_S512x1_S512x512 : S512x1.Broadcasts S512x512
  inb_S1x512x2048_S1x512x512_0_0_0 : ∀ a, (![0, 0, 0] : Fin 3 → Nat) a + S1x512x512.size a ≤ S1x512x2048.size a
  shapeCasts_S512x512_S1x512x512 : S512x512.ShapeCasts S1x512x512
  inb_S1x512x2048_S1x512x512_0_0_512 : ∀ a, (![0, 0, 512] : Fin 3 → Nat) a + S1x512x512.size a ≤ S1x512x2048.size a
  inb_S1x512x2048_S1x512x512_0_0_1024 : ∀ a, (![0, 0, 1024] : Fin 3 → Nat) a + S1x512x512.size a ≤ S1x512x2048.size a
  inb_S1x512x2048_S1x512x512_0_0_1536 : ∀ a, (![0, 0, 1536] : Fin 3 → Nat) a + S1x512x512.size a ≤ S1x512x2048.size a
  dot_S512x512_S512x512_S512x512_1_1_0_0_n_n_wf : DotDims.WF S512x512 S512x512 S512x512 [1] [1] [0] [0] [] []
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x512.size a ≤ S32x512x512.size a
  hwx0_0 : ∀ i : grid0.Coords, EltTy.bits .f32 = 32 ∨ (Rect.block (s := S32x512x512) S1x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x512.size a ≤ S32x512x512.size a
  hwx0_1 : ∀ i : grid0.Coords, EltTy.bits .f32 = 32 ∨ (Rect.block (s := S32x512x512) S1x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x2048.size a ≤ S32x512x2048.size a
  hwx0_2 : ∀ i : grid0.Coords, EltTy.bits .f32 = 32 ∨ (Rect.block (s := S32x512x2048) S1x512x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x2048.size a ≤ S32x512x2048.size a
  hwx0_3 : ∀ i : grid0.Coords, EltTy.bits .f32 = 32 ∨ (Rect.block (s := S32x512x2048) S1x512x2048.size (cc0_transform_3 i) (hinb0_3 i)).WholeWords (EltTy.packing .f32)

variable [Facts₀]

def dot_S512x512_S512x512_S512x512_1_1_0_0_n_n : DotDims S512x512 S512x512 S512x512 where
  lhsContracting := [1]
  rhsContracting := [1]
  lhsNonContracting := [0]
  rhsNonContracting := [0]
  lhsBatch := []
  rhsBatch := []
  wf := dot_S512x512_S512x512_S512x512_1_1_0_0_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_arg0) S1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x512x2048.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x512x512 : Shape := ⟨3, ![32, 512, 512]⟩
abbrev S_ : Shape := ⟨0, ![]⟩
abbrev S32x512 : Shape := ⟨2, ![32, 512]⟩
abbrev S32x512x1 : Shape := ⟨3, ![32, 512, 1]⟩
abbrev S32x1x512 : Shape := ⟨3, ![32, 1, 512]⟩
abbrev S32x512x2048 : Shape := ⟨3, ![32, 512, 2048]⟩

abbrev nBuf : Space → Nat
  | .hbm => 39
  | .vmem => 0
  | .smem => 0
  | _ => 0

abbrev bufTy : (tb : Table) → Fin (tcTables nBuf tb) → BufTy
  | .hbm, ⟨0, _⟩ => ⟨S32x512x512, .f32⟩
  | .hbm, ⟨1, _⟩ => ⟨S32x512x512, .f32⟩
  | .hbm, ⟨2, _⟩ => ⟨S32x512x512, .f32⟩
  | .hbm, ⟨3, _⟩ => ⟨S_, .f32⟩
  | .hbm, ⟨4, _⟩ => ⟨S32x512, .f32⟩
  | .hbm, ⟨5, _⟩ => ⟨S_, .f32⟩
  | .hbm, ⟨6, _⟩ => ⟨S32x512, .f32⟩
  | .hbm, ⟨7, _⟩ => ⟨S32x512, .f32⟩
  | .hbm, ⟨8, _⟩ => ⟨S32x512x1, .f32⟩
  | .hbm, ⟨9, _⟩ => ⟨S32x512x512, .f32⟩
  | .hbm, ⟨10, _⟩ => ⟨S32x512x512, .f32⟩
  | .hbm, ⟨11, _⟩ => ⟨S32x512x512, .f32⟩
  | .hbm, ⟨12, _⟩ => ⟨S_, .f32⟩
  | .hbm, ⟨13, _⟩ => ⟨S32x512, .f32⟩
  | .hbm, ⟨14, _⟩ => ⟨S32x512x1, .f32⟩
  | .hbm, ⟨15, _⟩ => ⟨S32x512x512, .f32⟩
  | .hbm, ⟨16, _⟩ => ⟨S32x512x512, .f32⟩
  | .hbm, ⟨17, _⟩ => ⟨S32x512x512, .f32⟩
  | .hbm, ⟨18, _⟩ => ⟨S_, .f32⟩
  | .hbm, ⟨19, _⟩ => ⟨S32x512, .f32⟩
  | .hbm, ⟨20, _⟩ => ⟨S_, .f32⟩
  | .hbm, ⟨21, _⟩ => ⟨S32x512, .f32⟩
  | .hbm, ⟨22, _⟩ => ⟨S32x512, .f32⟩
  | .hbm, ⟨23, _⟩ => ⟨S32x1x512, .f32⟩
  | .hbm, ⟨24, _⟩ => ⟨S32x512x512, .f32⟩
  | .hbm, ⟨25, _⟩ => ⟨S32x512x512, .f32⟩
  | .hbm, ⟨26, _⟩ => ⟨S32x512x512, .f32⟩
  | .hbm, ⟨27, _⟩ => ⟨S_, .f32⟩
  | .hbm, ⟨28, _⟩ => ⟨S32x512, .f32⟩
  | .hbm, ⟨29, _⟩ => ⟨S32x1x512, .f32⟩
  | .hbm, ⟨30, _⟩ => ⟨S32x512x512, .f32⟩
  | .hbm, ⟨31, _⟩ => ⟨S32x512x512, .f32⟩
  | .hbm, ⟨32, _⟩ => ⟨S32x512x512, .f32⟩
  | .hbm, ⟨33, _⟩ => ⟨S32x512x512, .f32⟩
  | .hbm, ⟨34, _⟩ => ⟨S32x512x512, .f32⟩
  | .hbm, ⟨35, _⟩ => ⟨S32x512x2048, .f32⟩
  | .hbm, ⟨36, _⟩ => ⟨S32x512x512, .f32⟩
  | .hbm, ⟨37, _⟩ => ⟨S32x512x512, .f32⟩
  | .hbm, ⟨38, _⟩ => ⟨S32x512x2048, .f32⟩
  | _, _ => ⟨S32x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩

abbrev nD : Nat := 1
abbrev τ : Topo := Topo.v7x

variable {F : FTy → Type} [FloatOps F]

class Facts₀ : Prop where
  reducesTo_S32x512x512_S32x512_d2 : S32x512x512.ReducesTo [2] S32x512
  h_S_ : 0 < S_.numel
  bcast_S_S32x512 : S_.BroadcastsInDim S32x512 (![] : Fin 0 → Fin S32x512.rank)
  bcast_S32x512_S32x512x1_0_1 : S32x512.BroadcastsInDim S32x512x1 (![0, 1] : Fin 2 → Fin S32x512x1.rank)
  bcast_S32x512x1_S32x512x512_0_1_2 : S32x512x1.BroadcastsInDim S32x512x512 (![0, 1, 2] : Fin 3 → Fin S32x512x512.rank)
  reducesTo_S32x512x512_S32x512_d1 : S32x512x512.ReducesTo [1] S32x512
  bcast_S32x512_S32x1x512_0_2 : S32x512.BroadcastsInDim S32x1x512 (![0, 2] : Fin 2 → Fin S32x1x512.rank)
  bcast_S32x1x512_S32x512x512_0_1_2 : S32x1x512.BroadcastsInDim S32x512x512 (![0, 1, 2] : Fin 3 → Fin S32x512x512.rank)
  concatenates_S32x512x512_S32x512x512_S32x512x512_S32x512x512_S32x512x2048_d2 : Shape.Concatenates [S32x512x512, S32x512x512, S32x512x512, S32x512x512] S32x512x2048 2
  dot_S32x512x512_S32x512x512_S32x512x512_2_2_1_1_0_0_wf : DotDims.WF S32x512x512 S32x512x512 S32x512x512 [2] [2] [1] [1] [0] [0]
  dot_S32x512x512_S32x512x512_S32x512x512_2_1_1_2_0_0_wf : DotDims.WF S32x512x512 S32x512x512 S32x512x512 [2] [1] [1] [2] [0] [0]
  dot_S32x512x512_S32x512x512_S32x512x512_1_1_2_2_0_0_wf : DotDims.WF S32x512x512 S32x512x512 S32x512x512 [1] [1] [2] [2] [0] [0]

variable [Facts₀]

def dot_S32x512x512_S32x512x512_S32x512x512_2_2_1_1_0_0 : DotDims S32x512x512 S32x512x512 S32x512x512 where
  lhsContracting := [2]
  rhsContracting := [2]
  lhsNonContracting := [1]
  rhsNonContracting := [1]
  lhsBatch := [0]
  rhsBatch := [0]
  wf := dot_S32x512x512_S32x512x512_S32x512x512_2_2_1_1_0_0_wf
def dot_S32x512x512_S32x512x512_S32x512x512_2_1_1_2_0_0 : DotDims S32x512x512 S32x512x512 S32x512x512 where
  lhsContracting := [2]
  rhsContracting := [1]
  lhsNonContracting := [1]
  rhsNonContracting := [2]
  lhsBatch := [0]
  rhsBatch := [0]
  wf := dot_S32x512x512_S32x512x512_S32x512x512_2_1_1_2_0_0_wf
def dot_S32x512x512_S32x512x512_S32x512x512_1_1_2_2_0_0 : DotDims S32x512x512 S32x512x512 S32x512x512 where
  lhsContracting := [1]
  rhsContracting := [1]
  lhsNonContracting := [2]
  rhsNonContracting := [2]
  lhsBatch := [0]
  rhsBatch := [0]
  wf := dot_S32x512x512_S32x512x512_S32x512x512_1_1_2_2_0_0_wf

class Facts : Prop extends Facts₀ where

variable [Facts]
-- ==== Proof.Spec.lean ====
/-
  Softmax co-attention on one 512 × 512 pair of matrices, over the extended reals.

  For matrices `q` and `k` (rows indexed by `Fin 512`, features by `Fin 512`):
  * the score of row `r` of `q` against row `c` of `k` is their inner product `∑ d, q r d * k c d`;
  * a row of scores is shifted by its maximum (taken from −∞), exponentiated, and divided by the sum of the row;
  * the attended row is the combination `∑ c, w r c * k c d` of the rows of `k` with those weights.
  The score matrix of `(k, q)` is the transpose of that of `(q, k)` because the product of extended reals
  commutes (`score_comm`): a column softmax of the scores of `(q, k)` is a row softmax of the scores of `(k, q)`.
  The output block lays four 512-wide slabs side by side: `x`, its attended matrix `y`, `x − y` and `x * y`.
-/
import Idealize.ShloMosaic.PureOps.Ideal
import Idealize.ShloMosaic.Lib.ValueIdx

noncomputable section

open scoped BigOperators

namespace Cert.CoAttn

open Idealize.ShloMosaic Idealize.ShloMosaic.ValueIdx

/-- A 512 × 512 matrix of extended reals. -/
abbrev Mat : Type := Fin 512 → Fin 512 → EReal

/-- The value of the f32 pattern of −∞: what every row maximum starts from. -/
abbrev negInf : EReal := Ideal.ofBits .f32 0xFF800000#32

/-- Inner products of the rows of `q` with the rows of `k`. -/
def score (q k : Mat) : Mat := fun r c => ∑ d : Fin 512, q r d * k c d

/-- The maximum of row `r`, folded from −∞ (and joined with −∞ once more, as both programs do). -/
def rowMax (e : Mat) (r : Fin 512) : EReal := max negInf ((Finset.univ : Finset (Fin 512)).fold max negInf (e r))

/-- The shifted exponentials of a row. -/
def expo (e : Mat) : Mat := fun r c => Ideal.exp (e r c - rowMax e r)

/-- Their sum along the row. -/
def rowSum (e : Mat) (r : Fin 512) : EReal := ∑ c : Fin 512, expo e r c

/-- The softmax weights of a row. -/
def weight (e : Mat) : Mat := fun r c => Ideal.div (expo e r c) (rowSum e r)

/-- The rows of `k` combined with the softmax weights of the score rows `e`. -/
def attendOf (e k : Mat) : Mat := fun r d => ∑ c : Fin 512, weight e r c * k c d

/-- Softmax attention of the rows of `q` over the rows of `k`. -/
def attend (q k : Mat) : Mat := attendOf (score q k) k

/-- The scores of `(k, q)` are the transposed scores of `(q, k)`: multiplication of extended reals commutes. -/
theorem score_comm (q k : Mat) (r c : Fin 512) : score q k r c = score k q c r :=
  Finset.sum_congr rfl fun _ _ => mul_comm _ _

/-- Slab `n` of an output row: `x`, `y`, `x − y`, `x * y`. -/
def slab (x y : Mat) (n : Fin 4) (r c : Fin 512) : EReal :=
  match n with
  | 0 => x r c
  | 1 => y r c
  | 2 => x r c - y r c
  | 3 => x r c * y r c

/-- Matrix `bt` of a stack of 32 matrices. -/
def sliceOf (X : (⟨3, ![32, 512, 512]⟩ : Shape).Idx → EReal) (bt : Fin 32) : Mat := fun r d => X (ix3 bt r d)

/-- The matrix a `[1, 512, 512]` block holds. -/
def matOf (X : (⟨3, ![1, 512, 512]⟩ : Shape).Idx → EReal) : Mat := fun r d => X (ix3 (0 : Fin 1) r d)

/-- The output stack: at `(bt, r, 512 n + c)` slab `n` of `x = X bt` and `y = attend (X bt) (Y bt)`. -/
def outOf (X Y : (⟨3, ![32, 512, 512]⟩ : Shape).Idx → EReal) : (⟨3, ![32, 512, 2048]⟩ : Shape).Idx → EReal :=
  fun i => slab (sliceOf X (i 0)) (attend (sliceOf X (i 0)) (sliceOf Y (i 0)))
    ⟨(i 2).val / 512, by have h : (i 2).val < 2048 := (i 2).isLt; show (i 2).val / 512 < 4; omega⟩ (i 1)
    ⟨(i 2).val % 512, Nat.mod_lt _ (by decide)⟩

/-- The output block of one pair: at `(0, r, 512 n + c)` slab `n` of `x` and `y`. -/
def blockOf (x y : Mat) : (⟨3, ![1, 512, 2048]⟩ : Shape).Idx → EReal :=
  fun i => slab x y ⟨(i 2).val / 512, by have h : (i 2).val < 2048 := (i 2).isLt; show (i 2).val / 512 < 4; omega⟩ (i 1)
    ⟨(i 2).val % 512, Nat.mod_lt _ (by decide)⟩

/-- `slab` at equal arguments. -/
theorem slab_congr (x y : Mat) {n n' : Fin 4} {r r' c c' : Fin 512} (hn : n' = n) (hr : r' = r) (hc : c' = c) :
    slab x y n' r' c' = slab x y n r c := by subst hn hr hc; rfl

/-- The output block at an index whose lane coordinate is `512 n + c`: slab `n` at `(r, c)`. -/
theorem blockOf_apply (x y : Mat) (i : (⟨3, ![1, 512, 2048]⟩ : Shape).Idx) (n : Fin 4) (r c : Fin 512)
    (h1 : (i 1).val = r.val) (h2 : (i 2).val = 512 * n.val + c.val) : blockOf x y i = slab x y n r c :=
  slab_congr x y (Fin.ext (by show (i 2).val / 512 = n.val; have := c.isLt; omega)) (Fin.ext h1)
    (Fin.ext (by show (i 2).val % 512 = c.val; have := c.isLt; omega))

/-- The output stack at an index `(bt, r, 512 n + c)`: slab `n` of pair `bt` at `(r, c)`. -/
theorem outOf_apply (X Y : (⟨3, ![32, 512, 512]⟩ : Shape).Idx → EReal) (i : (⟨3, ![32, 512, 2048]⟩ : Shape).Idx)
    (bt : Fin 32) (n : Fin 4) (r c : Fin 512)
    (h0 : (i 0).val = bt.val) (h1 : (i 1).val = r.val) (h2 : (i 2).val = 512 * n.val + c.val) :
    outOf X Y i = slab (sliceOf X bt) (attend (sliceOf X bt) (sliceOf Y bt)) n r c := by
  have key : ∀ (bt' : Fin 32) (n' : Fin 4) (r' c' : Fin 512), bt' = bt → n' = n → r' = r → c' = c →
      slab (sliceOf X bt') (attend (sliceOf X bt') (sliceOf Y bt')) n' r' c'
        = slab (sliceOf X bt) (attend (sliceOf X bt) (sliceOf Y bt)) n r c := by
    rintro _ _ _ _ rfl rfl rfl rfl; rfl
  exact key _ _ _ _ (Fin.ext h0) (Fin.ext (by show (i 2).val / 512 = n.val; have := c.isLt; omega)) (Fin.ext h1)
    (Fin.ext (by show (i 2).val % 512 = c.val; have := c.isLt; omega))

end Cert.CoAttn

end
-- ==== Proof.LibKeepdims.lean ====
/-
  Column forms of the layout operations that a row reduction with a kept axis produces, read at an index, and a
  lane sum over the second axis of a matrix as the sum over that row's entries. General lemmas over any extents.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to the row `[1, a]` reads, at `(u, i)`, the column at `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- On the extended reals a lane sum over the second axis of an `[a, b]` matrix is, at row `r`, the sum of that row's
    entries. -/
theorem multiReduction_add_rows {a b : ℕ} (src : FVec Ideal ⟨2, ![a, b]⟩ .f32) (acc : BitVec (FTy.bits .f32))
    (h : (⟨2, ![a, b]⟩ : Shape).Reduces [1] ⟨1, ![a]⟩) (hφ : FKind.Formats .f32) (hacc : acc = FKind.add.neutral .f32 hφ)
    (r : Fin a) :
    multiReduction .add [1] ⟨1, ![a]⟩ src acc h hφ hacc (ix1 r) = ∑ d : Fin b, src (ix2 r d) := by
  refine (Ideal.multiReduction_add_single src acc h hφ hacc (ix1 r)).trans ?_
  refine Finset.sum_congr rfl fun d _ => congrArg src (funext fun ax => Fin.ext ?_)
  match ax with
  | ⟨0, _⟩ => rfl
  | ⟨1, _⟩ => rfl

end Cert.LibKeepdims

end
-- ==== Proof.LibRowMax.lean ====
/-
  Maxima along one axis on the extended reals. A lane maximum over the second axis of a matrix, read at a row: the
  fold of `max`, from the value of the accumulator's pattern, over that row's entries. A host reduction by maximum over
  one axis, read at a result index: the fold of `max`, from the initial value, over that axis's coordinates.
  General in the shapes.
-/
import Idealize.ShloMosaic.Lib.ValueIdx
import Idealize.ShloMosaic.PureOps.Ideal.Laws

noncomputable section

namespace Cert.LibRowMax

open Idealize.ShloMosaic Idealize.ShloMosaic.ValueIdx

/-- On the extended reals a lane maximum over the second axis of an `[a, b]` matrix is, at row `r`, the fold of `max`
    from the accumulator's value over that row's entries. -/
theorem multiReduction_maximumf_rows {a b : ℕ} (src : FVec Ideal ⟨2, ![a, b]⟩ .f32) (acc : BitVec (FTy.bits .f32))
    (h : (⟨2, ![a, b]⟩ : Shape).Reduces [1] ⟨1, ![a]⟩) (hφ : FKind.Formats .f32)
    (hacc : acc = FKind.maximumf.neutral .f32 hφ) (r : Fin a) :
    multiReduction .maximumf [1] ⟨1, ![a]⟩ src acc h hφ hacc (ix1 r)
      = (Finset.univ : Finset (Fin b)).fold max (Ideal.ofBits .f32 acc) (fun d => src (ix2 r d)) := by
  refine (Ideal.multiReduction_maximumf_single src acc h hφ hacc (ix1 r)).trans ?_
  refine congrArg (fun f => (Finset.univ : Finset (Fin b)).fold max (Ideal.ofBits .f32 acc) f) (funext fun d => ?_)
  refine congrArg src (funext fun ax => Fin.ext ?_)
  match ax with
  | ⟨0, _⟩ => rfl
  | ⟨1, _⟩ => rfl

/-- On the extended reals the host's reduction by maximum over ONE axis is, at a result index `j`, the fold of `max` from
    the initial value over that axis's coordinates (the index `j` with the coordinate inserted on the reduced axis). -/
theorem hostReduce_maximumf_single {s t u : Shape} {a : Fin s.rank} (x : s.Idx → EReal) (init : u.Idx → EReal)
    (h' : s.ReducesTo [a] t) (h : s.Reduces [a] t) (hu : 0 < u.numel) (j : t.Idx) :
    Host.reduce (FloatOps.maximumf (F := Ideal) (φ := .f32)) x init h' hu j
      = (Finset.univ : Finset (Fin (s.size a))).fold max (init (Shape.Idx.first hu)) (fun k => x (h.lift j k)) :=
  Host.reduce_eq_fold_single (FloatOps.maximumf (F := Ideal) (φ := .f32)) x init h' h hu j

end Cert.LibRowMax

end
-- ==== Proof.KernelPay.lean ====
/-
  The kernel body's two attention payloads read at an index, on the extended reals.

  A `[1, 512, 512]` block is its matrix `matOf X`. The body rounds both matrices to bf16 (the identity on the
  extended reals), takes the scores of the first against the second on the matrix unit (a sum over the feature
  axis), a lane maximum and a lane sum along each score row (kept as a column and broadcast back over the row),
  and a second matrix product of the softmax weights with the second matrix. Read at `(r, d)` this is
  `attend (matOf X0) (matOf X1) r d`. The second payload is the same term with the two blocks exchanged.
-/
import proofs.«100737_j74878459838619_2_alg».proof.Proof.Gen.KernelIdeal.Skeleton
import proofs.«100737_j74878459838619_2_alg».proof.Proof.Spec
import proofs.«100737_j74878459838619_2_alg».proof.Proof.LibKeepdims
import proofs.«100737_j74878459838619_2_alg».proof.Proof.LibRowMax
import Idealize.ShloMosaic.Lib.ValueIdx
import Idealize.ShloMosaic.Lib.ValueLayout
import Idealize.ShloMosaic.PureOps.Ideal.Laws

noncomputable section

open scoped BigOperators

namespace Cert.KernelIdeal.Pay

open Cert.KernelIdeal Cert.KernelIdeal.Gen Idealize.ShloMosaic Idealize.ShloMosaic.ValueIdx Cert.CoAttn

/-! ## The two matrix products at an index -/

/-- Rows against rows (both operands contracted over their feature axis): the left operand is read at `(r, k)`. -/
theorem lhsT_0 (i : S512x512.Idx) (q : dot_S512x512_S512x512_S512x512_1_1_0_0_n_n.contr.Idx) : (dot_S512x512_S512x512_S512x512_1_1_0_0_n_n.lhsIdx i q 0).val = (i 0).val := by
  unfold DotDims.lhsIdx
  rw [dif_neg (show ¬(0 : Fin S512x512.rank) ∈ dot_S512x512_S512x512_S512x512_1_1_0_0_n_n.lhsBatch by decide), dif_pos (show (0 : Fin S512x512.rank) ∈ dot_S512x512_S512x512_S512x512_1_1_0_0_n_n.lhsNonContracting by decide)]
  rfl
theorem lhsT_1 (i : S512x512.Idx) (q : dot_S512x512_S512x512_S512x512_1_1_0_0_n_n.contr.Idx) : (dot_S512x512_S512x512_S512x512_1_1_0_0_n_n.lhsIdx i q 1).val = (q ⟨0, by decide⟩).val :=
  dot_S512x512_S512x512_S512x512_1_1_0_0_n_n.lhsIdx_val_of_single rfl i q
/-- … and the right operand at `(c, k)`. -/
theorem rhsT_0 (i : S512x512.Idx) (q : dot_S512x512_S512x512_S512x512_1_1_0_0_n_n.contr.Idx) : (dot_S512x512_S512x512_S512x512_1_1_0_0_n_n.rhsIdx i q 0).val = (i 1).val := by
  unfold DotDims.rhsIdx
  rw [dif_neg (show ¬(0 : Fin S512x512.rank) ∈ dot_S512x512_S512x512_S512x512_1_1_0_0_n_n.rhsBatch by decide), dif_pos (show (0 : Fin S512x512.rank) ∈ dot_S512x512_S512x512_S512x512_1_1_0_0_n_n.rhsNonContracting by decide)]
  rfl
theorem rhsT_1 (i : S512x512.Idx) (q : dot_S512x512_S512x512_S512x512_1_1_0_0_n_n.contr.Idx) : (dot_S512x512_S512x512_S512x512_1_1_0_0_n_n.rhsIdx i q 1).val = (q ⟨0, by decide⟩).val :=
  dot_S512x512_S512x512_S512x512_1_1_0_0_n_n.rhsIdx_val_of_single rfl i q

/-- The score product into the zero accumulator, at `(r, c)`: the inner product of row `r` with row `c`. -/
theorem scores_apply (Q K : FVec Ideal S512x512 .bf16) (r c : Fin 512) :
    (matmul dot_S512x512_S512x512_S512x512_1_1_0_0_n_n none Q K (constant (F := Ideal) S512x512 .f32 0x00000000#32) (ix2 r c) : EReal)
      = ∑ k : Fin 512, (Q (ix2 r k) : EReal) * (K (ix2 c k) : EReal) := by
  simp only [matmul]
  rw [Ideal.matmul_constant_zero_apply, ← Equiv.sum_comp (contrEquiv1 dot_S512x512_S512x512_S512x512_1_1_0_0_n_n 512 rfl rfl).symm]
  refine Finset.sum_congr rfl fun k _ => ?_
  have hk := contrEquiv1_symm_val dot_S512x512_S512x512_S512x512_1_1_0_0_n_n 512 rfl rfl k
  have el : dot_S512x512_S512x512_S512x512_1_1_0_0_n_n.lhsIdx (ix2 r c) ((contrEquiv1 dot_S512x512_S512x512_S512x512_1_1_0_0_n_n 512 rfl rfl).symm k) = ix2 r k := funext fun a => Fin.ext (by
    match a with
    | ⟨0, _⟩ => exact lhsT_0 _ _
    | ⟨1, _⟩ => exact (lhsT_1 _ _).trans hk)
  have er : dot_S512x512_S512x512_S512x512_1_1_0_0_n_n.rhsIdx (ix2 r c) ((contrEquiv1 dot_S512x512_S512x512_S512x512_1_1_0_0_n_n 512 rfl rfl).symm k) = ix2 c k := funext fun a => Fin.ext (by
    match a with
    | ⟨0, _⟩ => exact rhsT_0 _ _
    | ⟨1, _⟩ => exact (rhsT_1 _ _).trans hk)
  rw [el, er]

/-- Rows against columns (the plain product): the left operand is read at `(r, k)`. -/
theorem lhsN_0 (i : S512x512.Idx) (q : dot_S512x512_S512x512_S512x512_1_0_0_1_n_n.contr.Idx) : (dot_S512x512_S512x512_S512x512_1_0_0_1_n_n.lhsIdx i q 0).val = (i 0).val := by
  unfold DotDims.lhsIdx
  rw [dif_neg (show ¬(0 : Fin S512x512.rank) ∈ dot_S512x512_S512x512_S512x512_1_0_0_1_n_n.lhsBatch by decide), dif_pos (show (0 : Fin S512x512.rank) ∈ dot_S512x512_S512x512_S512x512_1_0_0_1_n_n.lhsNonContracting by decide)]
  rfl
theorem lhsN_1 (i : S512x512.Idx) (q : dot_S512x512_S512x512_S512x512_1_0_0_1_n_n.contr.Idx) : (dot_S512x512_S512x512_S512x512_1_0_0_1_n_n.lhsIdx i q 1).val = (q ⟨0, by decide⟩).val :=
  dot_S512x512_S512x512_S512x512_1_0_0_1_n_n.lhsIdx_val_of_single rfl i q
/-- … and the right operand at `(k, d)`. -/
theorem rhsN_0 (i : S512x512.Idx) (q : dot_S512x512_S512x512_S512x512_1_0_0_1_n_n.contr.Idx) : (dot_S512x512_S512x512_S512x512_1_0_0_1_n_n.rhsIdx i q 0).val = (q ⟨0, by decide⟩).val :=
  dot_S512x512_S512x512_S512x512_1_0_0_1_n_n.rhsIdx_val_of_single rfl i q
theorem rhsN_1 (i : S512x512.Idx) (q : dot_S512x512_S512x512_S512x512_1_0_0_1_n_n.contr.Idx) : (dot_S512x512_S512x512_S512x512_1_0_0_1_n_n.rhsIdx i q 1).val = (i 1).val := by
  unfold DotDims.rhsIdx
  rw [dif_neg (show ¬(1 : Fin S512x512.rank) ∈ dot_S512x512_S512x512_S512x512_1_0_0_1_n_n.rhsBatch by decide), dif_pos (show (1 : Fin S512x512.rank) ∈ dot_S512x512_S512x512_S512x512_1_0_0_1_n_n.rhsNonContracting by decide)]
  rfl

/-- The weighted combination into the zero accumulator, at `(r, d)`: row `r` of the weights against column `d`. -/
theorem combine_apply (W K : FVec Ideal S512x512 .bf16) (r d : Fin 512) :
    (matmul dot_S512x512_S512x512_S512x512_1_0_0_1_n_n none W K (constant (F := Ideal) S512x512 .f32 0x00000000#32) (ix2 r d) : EReal)
      = ∑ k : Fin 512, (W (ix2 r k) : EReal) * (K (ix2 k d) : EReal) := by
  simp only [matmul]
  rw [Ideal.matmul_constant_zero_apply, ← Equiv.sum_comp (contrEquiv1 dot_S512x512_S512x512_S512x512_1_0_0_1_n_n 512 rfl rfl).symm]
  refine Finset.sum_congr rfl fun k _ => ?_
  have hk := contrEquiv1_symm_val dot_S512x512_S512x512_S512x512_1_0_0_1_n_n 512 rfl rfl k
  have el : dot_S512x512_S512x512_S512x512_1_0_0_1_n_n.lhsIdx (ix2 r d) ((contrEquiv1 dot_S512x512_S512x512_S512x512_1_0_0_1_n_n 512 rfl rfl).symm k) = ix2 r k := funext fun a => Fin.ext (by
    match a with
    | ⟨0, _⟩ => exact lhsN_0 _ _
    | ⟨1, _⟩ => exact (lhsN_1 _ _).trans hk)
  have er : dot_S512x512_S512x512_S512x512_1_0_0_1_n_n.rhsIdx (ix2 r d) ((contrEquiv1 dot_S512x512_S512x512_S512x512_1_0_0_1_n_n 512 rfl rfl).symm k) = ix2 k d := funext fun a => Fin.ext (by
    match a with
    | ⟨0, _⟩ => exact (rhsN_0 _ _).trans hk
    | ⟨1, _⟩ => exact rhsN_1 _ _)
  rw [el, er]

/-! ## A block as its matrix -/

/-- The block with its unit axis dropped, at `(r, d)`. -/
theorem pay8_apply (X : Vec Ideal S1x512x512 .f32) (r d : Fin 512) : (k0_pay8 X (ix2 r d) : EReal) = matOf X r d :=
  shapeCast_1ab_ab_apply X shapeCasts_S1x512x512_S512x512 r d
theorem pay9_apply (X : Vec Ideal S1x512x512 .f32) (r d : Fin 512) : (k0_pay9 X (ix2 r d) : EReal) = matOf X r d :=
  shapeCast_1ab_ab_apply X shapeCasts_S1x512x512_S512x512 r d
/-- Rounded to bf16: the same extended real. -/
theorem pay10_apply (X : Vec Ideal S1x512x512 .f32) (r d : Fin 512) : (k0_pay10 X (ix2 r d) : EReal) = matOf X r d :=
  pay8_apply X r d
theorem pay11_apply (X : Vec Ideal S1x512x512 .f32) (r d : Fin 512) : (k0_pay11 X (ix2 r d) : EReal) = matOf X r d :=
  pay9_apply X r d

/-! ## The softmax along a score row, step by step -/

section
variable (e : Mat)

/-- The row maxima, kept as a column and broadcast back over the rows. -/
theorem rowMaxVec_apply (E : FVec Ideal S512x512 .f32) (hE : ∀ r c : Fin 512, (E (ix2 r c) : EReal) = e r c) (r c : Fin 512) :
    (broadcastTo S512x512 (shapeCast S512x1 (maximumf (broadcast S512 (Scalar.ofBits (F := Ideal) .f32 0xFF800000#32))
        (multiReduction .maximumf [1] S512 E 0xFF800000#32 reduces_S512x512_S512 (.inl rfl) rfl)) shapeCasts_S512_S512x1)
        broadcasts_S512x1_S512x512 (ix2 r c) : EReal) = rowMax e r := by
  refine (LibKeepdims.broadcastTo_a1_ab_apply _ broadcasts_S512x1_S512x512 r c).trans ?_
  refine (LibKeepdims.shapeCast_a_a1_apply _ shapeCasts_S512_S512x1 r (0 : Fin 1)).trans ?_
  refine (maximumf_apply _ _ _).trans ?_
  refine congrArg₂ max rfl ?_
  refine (LibRowMax.multiReduction_maximumf_rows E 0xFF800000#32 reduces_S512x512_S512 (.inl rfl) rfl r).trans ?_
  exact congrArg (fun f => (Finset.univ : Finset (Fin 512)).fold max negInf f) (funext fun c' => hE r c')

/-- The shifted exponentials. -/
theorem expoVec_apply (E M : FVec Ideal S512x512 .f32) (hE : ∀ r c : Fin 512, (E (ix2 r c) : EReal) = e r c)
    (hM : ∀ r c : Fin 512, (M (ix2 r c) : EReal) = rowMax e r) (r c : Fin 512) :
    (exp (subf E M) (ix2 r c) : EReal) = expo e r c := by
  show Ideal.exp ((E (ix2 r c) : EReal) - M (ix2 r c)) = Ideal.exp (e r c - rowMax e r)
  rw [hE, hM]

/-- The row sums, kept as a column and broadcast back over the rows. -/
theorem rowSumVec_apply (P : FVec Ideal S512x512 .f32) (hP : ∀ r c : Fin 512, (P (ix2 r c) : EReal) = expo e r c) (r c : Fin 512) :
    (broadcastTo S512x512 (shapeCast S512x1 (multiReduction .add [1] S512 P 0x00000000#32 reduces_S512x512_S512 (.inl rfl) rfl)
        shapeCasts_S512_S512x1) broadcasts_S512x1_S512x512 (ix2 r c) : EReal) = rowSum e r := by
  refine (LibKeepdims.broadcastTo_a1_ab_apply _ broadcasts_S512x1_S512x512 r c).trans ?_
  refine (LibKeepdims.shapeCast_a_a1_apply _ shapeCasts_S512_S512x1 r (0 : Fin 1)).trans ?_
  refine (LibKeepdims.multiReduction_add_rows P 0x00000000#32 reduces_S512x512_S512 (.inl rfl) rfl r).trans ?_
  exact Finset.sum_congr rfl fun c' _ => hP r c'

/-- The softmax weights. -/
theorem weightVec_apply (P Z : FVec Ideal S512x512 .f32) (hP : ∀ r c : Fin 512, (P (ix2 r c) : EReal) = expo e r c)
    (hZ : ∀ r c : Fin 512, (Z (ix2 r c) : EReal) = rowSum e r) (r c : Fin 512) :
    (divf P Z (ix2 r c) : EReal) = weight e r c := by
  show Ideal.div (P (ix2 r c)) (Z (ix2 r c)) = Ideal.div (expo e r c) (rowSum e r)
  rw [hP, hZ]

end

/-- The attention term of the body over two bf16 operand matrices `Q`, `K` holding the matrices `q`, `k`, at `(r, d)`. -/
theorem attendVec_apply (q k : Mat) (W K : FVec Ideal S512x512 .bf16)
    (hW : ∀ r c : Fin 512, (W (ix2 r c) : EReal) = weight (score q k) r c)
    (hK : ∀ r c : Fin 512, (K (ix2 r c) : EReal) = k r c) (r d : Fin 512) :
    (matmul dot_S512x512_S512x512_S512x512_1_0_0_1_n_n none W K (constant (F := Ideal) S512x512 .f32 0x00000000#32) (ix2 r d) : EReal) = attend q k r d := by
  refine (combine_apply W K r d).trans ?_
  show ∑ c : Fin 512, (W (ix2 r c) : EReal) * (K (ix2 c d) : EReal) = ∑ c : Fin 512, weight (score q k) r c * k c d
  exact Finset.sum_congr rfl fun c _ => by rw [hW, hK]

/-! ## The two payloads -/

/-- The first attention payload at `(r, d)`: the rows of the first block attending over the rows of the second. -/
theorem pay12_apply (X0 X1 : Vec Ideal S1x512x512 .f32) (r d : Fin 512) :
    (k0_pay12 X0 X1 (ix2 r d) : EReal) = attend (matOf X0) (matOf X1) r d := by
  have hE : ∀ r c : Fin 512, (matmul dot_S512x512_S512x512_S512x512_1_1_0_0_n_n none (k0_pay10 X0) (k0_pay11 X1) (constant (F := Ideal) S512x512 .f32 0x00000000#32) (ix2 r c) : EReal)
      = score (matOf X0) (matOf X1) r c :=
    fun r c => (scores_apply _ _ r c).trans (Finset.sum_congr rfl fun k _ => by rw [pay10_apply, pay11_apply])
  have hM := rowMaxVec_apply _ _ hE
  have hP := expoVec_apply _ _ _ hE hM
  have hZ := rowSumVec_apply _ _ hP
  have hW := weightVec_apply _ _ _ hP hZ
  exact attendVec_apply (matOf X0) (matOf X1) _ _ hW (pay11_apply X1) r d

/-- The second payload is the first with the blocks exchanged: the two roundings to bf16 are one function. -/
theorem pay13_eq (X0 X1 : Vec Ideal S1x512x512 .f32) : k0_pay13 X0 X1 = k0_pay12 X1 X0 := rfl

theorem pay13_apply (X0 X1 : Vec Ideal S1x512x512 .f32) (r d : Fin 512) :
    (k0_pay13 X0 X1 (ix2 r d) : EReal) = attend (matOf X1) (matOf X0) r d := by
  rw [pay13_eq]; exact pay12_apply X1 X0 r d

end Cert.KernelIdeal.Pay

end
-- ==== Proof.KernelBlock.lean ====
/-
  What the kernel body leaves in each output block, as one function of the block index.

  The body stores four `[1, 512, 512]` pieces side by side along the lanes of a `[1, 512, 2048]` block, at lane
  offsets 0, 512, 1024 and 1536: the input matrix `x`, its attended matrix `y`, `x − y` and `x * y`. A piece at lane
  offset `512 n` holds slab `n`, and the pieces tile the block, so the block is `blockOf x y`. For the first output
  `x` is the first input block and `y = attend x z` with `z` the second; for the second output the two are exchanged.
-/
import proofs.«100737_j74878459838619_2_alg».proof.Proof.Gen.KernelIdeal.Frame
import proofs.«100737_j74878459838619_2_alg».proof.Proof.KernelPay
import Idealize.ShloMosaic.Lib.Pipeline.Value

noncomputable section

open scoped BigOperators

namespace Cert.KernelIdeal.Pay

open Cert.KernelIdeal Cert.KernelIdeal.Gen Idealize.ShloMosaic Idealize.ShloMosaic.ValueIdx Cert.CoAttn

theorem zero_offsets : (![0, 0, 0] : Fin 3 → Nat) = fun _ => 0 := funext fun a => by fin_cases a <;> rfl

/-- A piece whose payload holds slab `n`, stored at lane offset `512 n`, is the block's function under the piece. -/
theorem piece_apply (x y : Mat) (n : Fin 4) (P : S1x512x512.Idx → EReal)
    (hP : ∀ r c : Fin 512, P (ix3 (0 : Fin 1) r c) = slab x y n r c)
    (off : Fin 3 → Nat) (h1 : off 1 = 0) (h2 : off 2 = 512 * n.val)
    (inb : ∀ a, off a + S1x512x512.size a ≤ S1x512x2048.size a) (z : S1x512x512.Idx) :
    P z = blockOf x y ((Rect.unit (s := S1x512x2048) off S1x512x512.size inb).emb z) := by
  obtain ⟨u, r, c, rfl⟩ : ∃ (u : Fin 1) (r c : Fin 512), z = ix3 u r c := ⟨z 0, z 1, z 2, eq_ix3 z⟩
  have hu : u = 0 := Subsingleton.elim _ _
  subst hu
  rw [hP]
  refine (blockOf_apply x y _ n r c ?_ ?_).symm
  · show off 1 + 1 * r.val = r.val
    omega
  · show off 2 + 1 * c.val = 512 * n.val + c.val
    omega

/-! ## The eight payloads at `(0, r, c)` -/

section
variable (X0 X1 : Vec Ideal S1x512x512 .f32) (r c : Fin 512)

theorem pay14_apply : (k0_pay14 X0 (ix3 (0 : Fin 1) r c) : EReal) = slab (matOf X0) (attend (matOf X0) (matOf X1)) 0 r c := by
  unfold k0_pay14
  refine (shapeCast_ab_1ab_apply _ shapeCasts_S512x512_S1x512x512 (0 : Fin 1) r c).trans ?_
  exact pay8_apply X0 r c

theorem pay1_apply : (k0_pay1 (k0_pay12 X0 X1) (ix3 (0 : Fin 1) r c) : EReal) = slab (matOf X0) (attend (matOf X0) (matOf X1)) 1 r c := by
  unfold k0_pay1
  refine (shapeCast_ab_1ab_apply _ shapeCasts_S512x512_S1x512x512 (0 : Fin 1) r c).trans ?_
  exact pay12_apply X0 X1 r c

theorem pay2_apply : (k0_pay2 (k0_pay8 X0) (k0_pay12 X0 X1) (ix3 (0 : Fin 1) r c) : EReal) = slab (matOf X0) (attend (matOf X0) (matOf X1)) 2 r c := by
  unfold k0_pay2
  refine (shapeCast_ab_1ab_apply _ shapeCasts_S512x512_S1x512x512 (0 : Fin 1) r c).trans ?_
  show (k0_pay8 X0 (ix2 r c) : EReal) - k0_pay12 X0 X1 (ix2 r c) = matOf X0 r c - attend (matOf X0) (matOf X1) r c
  rw [pay8_apply, pay12_apply]

theorem pay3_apply : (k0_pay3 (k0_pay8 X0) (k0_pay12 X0 X1) (ix3 (0 : Fin 1) r c) : EReal) = slab (matOf X0) (attend (matOf X0) (matOf X1)) 3 r c := by
  unfold k0_pay3
  refine (shapeCast_ab_1ab_apply _ shapeCasts_S512x512_S1x512x512 (0 : Fin 1) r c).trans ?_
  show (k0_pay8 X0 (ix2 r c) : EReal) * k0_pay12 X0 X1 (ix2 r c) = matOf X0 r c * attend (matOf X0) (matOf X1) r c
  rw [pay8_apply, pay12_apply]

theorem pay4_apply : (k0_pay4 (k0_pay9 X1) (ix3 (0 : Fin 1) r c) : EReal) = slab (matOf X1) (attend (matOf X1) (matOf X0)) 0 r c := by
  unfold k0_pay4
  refine (shapeCast_ab_1ab_apply _ shapeCasts_S512x512_S1x512x512 (0 : Fin 1) r c).trans ?_
  exact pay9_apply X1 r c

theorem pay5_apply : (k0_pay5 (k0_pay13 X0 X1) (ix3 (0 : Fin 1) r c) : EReal) = slab (matOf X1) (attend (matOf X1) (matOf X0)) 1 r c := by
  unfold k0_pay5
  refine (shapeCast_ab_1ab_apply _ shapeCasts_S512x512_S1x512x512 (0 : Fin 1) r c).trans ?_
  exact pay13_apply X0 X1 r c

theorem pay6_apply : (k0_pay6 (k0_pay9 X1) (k0_pay13 X0 X1) (ix3 (0 : Fin 1) r c) : EReal) = slab (matOf X1) (attend (matOf X1) (matOf X0)) 2 r c := by
  unfold k0_pay6
  refine (shapeCast_ab_1ab_apply _ shapeCasts_S512x512_S1x512x512 (0 : Fin 1) r c).trans ?_
  show (k0_pay9 X1 (ix2 r c) : EReal) - k0_pay13 X0 X1 (ix2 r c) = matOf X1 r c - attend (matOf X1) (matOf X0) r c
  rw [pay9_apply, pay13_apply]

theorem pay7_apply : (k0_pay7 (k0_pay9 X1) (k0_pay13 X0 X1) (ix3 (0 : Fin 1) r c) : EReal) = slab (matOf X1) (attend (matOf X1) (matOf X0)) 3 r c := by
  unfold k0_pay7
  refine (shapeCast_ab_1ab_apply _ shapeCasts_S512x512_S1x512x512 (0 : Fin 1) r c).trans ?_
  show (k0_pay9 X1 (ix2 r c) : EReal) * k0_pay13 X0 X1 (ix2 r c) = matOf X1 r c * attend (matOf X1) (matOf X0) r c
  rw [pay9_apply, pay13_apply]

end

/-! ## The two output blocks -/

/-- The first output block after the body: the four slabs of the first input block and its attention over the second. -/
theorem out0_2_eq (X0 X1 : Vec Ideal S1x512x512 .f32) :
    out0_2 X0 X1 = blockOf (matOf X0) (attend (matOf X0) (matOf X1)) := by
  funext y
  unfold out0_2
  simp only [View.ld_unit_zero (S := S1x512x512) zero_offsets]
  refine View.canon_apply_of_pieces (Val := Elt Ideal) (S := S1x512x2048) (e := .f32) (blockOf (matOf X0) (attend (matOf X0) (matOf X1))) _ ?_ y (cover0_2 _ _ _ _ y)
  intro p hp
  simp only [List.mem_cons, List.not_mem_nil, or_false] at hp
  rcases hp with rfl | rfl | rfl | rfl
  · exact fun z => piece_apply _ _ 3 _ (fun r c => pay3_apply X0 X1 r c) ![0, 0, 1536] rfl rfl inb_S1x512x2048_S1x512x512_0_0_1536 z
  · exact fun z => piece_apply _ _ 2 _ (fun r c => pay2_apply X0 X1 r c) ![0, 0, 1024] rfl rfl inb_S1x512x2048_S1x512x512_0_0_1024 z
  · exact fun z => piece_apply _ _ 1 _ (fun r c => pay1_apply X0 X1 r c) ![0, 0, 512] rfl rfl inb_S1x512x2048_S1x512x512_0_0_512 z
  · exact fun z => piece_apply _ _ 0 _ (fun r c => pay14_apply X0 X1 r c) ![0, 0, 0] rfl rfl inb_S1x512x2048_S1x512x512_0_0_0 z

/-- The second output block after the body: the four slabs of the second input block and its attention over the first. -/
theorem out0_3_eq (X0 X1 : Vec Ideal S1x512x512 .f32) :
    out0_3 X0 X1 = blockOf (matOf X1) (attend (matOf X1) (matOf X0)) := by
  funext y
  unfold out0_3
  simp only [View.ld_unit_zero (S := S1x512x512) zero_offsets]
  refine View.canon_apply_of_pieces (Val := Elt Ideal) (S := S1x512x2048) (e := .f32) (blockOf (matOf X1) (attend (matOf X1) (matOf X0))) _ ?_ y (cover0_3 _ _ _ _ y)
  intro p hp
  simp only [List.mem_cons, List.not_mem_nil, or_false] at hp
  rcases hp with rfl | rfl | rfl | rfl
  · exact fun z => piece_apply _ _ 3 _ (fun r c => pay7_apply X0 X1 r c) ![0, 0, 1536] rfl rfl inb_S1x512x2048_S1x512x512_0_0_1536 z
  · exact fun z => piece_apply _ _ 2 _ (fun r c => pay6_apply X0 X1 r c) ![0, 0, 1024] rfl rfl inb_S1x512x2048_S1x512x512_0_0_1024 z
  · exact fun z => piece_apply _ _ 1 _ (fun r c => pay5_apply X0 X1 r c) ![0, 0, 512] rfl rfl inb_S1x512x2048_S1x512x512_0_0_512 z
  · exact fun z => piece_apply _ _ 0 _ (fun r c => pay4_apply X0 X1 r c) ![0, 0, 0] rfl rfl inb_S1x512x2048_S1x512x512_0_0_0 z

end Cert.KernelIdeal.Pay

end
-- ==== Proof.KernelArray.lean ====
/-
  From blocks to arrays: what each output array of the kernel holds after the run.

  Every window's block at grid point `t` is slice `t` of its array along the batch axis (block index `(t, 0, 0)`), so
  the two input blocks at `t` are the matrices `sliceOf X t` and `sliceOf Y t` of the arguments, and what point `t`
  writes back is block `t` of `outOf X Y` (first output) and of `outOf Y X` (second output). The 32 blocks cover the
  batch axis, so the arrays end holding those functions.
-/
import proofs.«100737_j74878459838619_2_alg».proof.Proof.Gen.KernelIdeal.Value
import proofs.«100737_j74878459838619_2_alg».proof.Proof.KernelBlock
import Idealize.ShloMosaic.Lib.Pipeline.Value

noncomputable section

namespace Cert.KernelIdeal.Arr

open Cert.KernelIdeal Cert.KernelIdeal.Gen Idealize.ShloMosaic Idealize.ShloMosaic.TcCoe Idealize.SL.Sem
open Idealize.ShloMosaic.ValueIdx Cert.CoAttn
open Idealize.ShloMosaic.Pipeline (Dat)

variable (m : (ℓ : Loc nD τ sig) → Buf (Elt Ideal) ℓ) (ρ : Dev nD → PrngReg)

/-- The printed index maps, decided over the grid: every window's block index at point `t` is `(t, 0, 0)`. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-- The first input block at point `t` is matrix `t` of the first argument. -/
theorem iblk0_mat (c : Dev nD) (t : Fin cfg0.N) (bt : Fin 32) (hbt : bt.val = t.val) :
    matOf (iblk m c 0 t) = sliceOf (V m c main_arg0) bt := by
  funext r d
  show V m c main_arg0 (((cfg0.win 0).blk t).view.emb (ix3 (0 : Fin 1) r d)) = V m c main_arg0 (ix3 bt r d)
  obtain ⟨e0, e1, e2, -⟩ := idx_facts t
  refine congrArg (V m c main_arg0) (funext fun a => Fin.ext ?_)
  match a with
  | ⟨0, _⟩ => show win0_0.index t (0 : Fin 3) * 1 + 1 * 0 = bt.val; omega
  | ⟨1, _⟩ => show win0_0.index t (1 : Fin 3) * 512 + 1 * r.val = r.val; omega
  | ⟨2, _⟩ => show win0_0.index t (2 : Fin 3) * 512 + 1 * d.val = d.val; omega

/-- The second input block at point `t` is matrix `t` of the second argument. -/
theorem iblk1_mat (c : Dev nD) (t : Fin cfg0.N) (bt : Fin 32) (hbt : bt.val = t.val) :
    matOf (iblk m c 1 t) = sliceOf (V m c main_arg1) bt := by
  funext r d
  show V m c main_arg1 (((cfg0.win 1).blk t).view.emb (ix3 (0 : Fin 1) r d)) = V m c main_arg1 (ix3 bt r d)
  obtain ⟨-, -, -, e0, e1, e2, -⟩ := idx_facts t
  refine congrArg (V m c main_arg1) (funext fun a => Fin.ext ?_)
  match a with
  | ⟨0, _⟩ => show win0_1.index t (0 : Fin 3) * 1 + 1 * 0 = bt.val; omega
  | ⟨1, _⟩ => show win0_1.index t (1 : Fin 3) * 512 + 1 * r.val = r.val; omega
  | ⟨2, _⟩ => show win0_1.index t (2 : Fin 3) * 512 + 1 * d.val = d.val; omega

/-- A point of the grid as a batch number. -/
theorem point_lt (t : Fin cfg0.N) : t.val < 32 := by
  have h : t.val < grid0.N := t.isLt
  have hN : grid0.N = 32 := N_0
  omega

/-- What point `t` writes back to the first output is block `t` of `outOf` of the two arguments. -/
theorem flushed2_eq (c : Dev nD) (t : Fin cfg0.N) :
    (dats m 0 c).flushed 2 t
      = ((cfg0.win 2).blk t).view.read (Elt Ideal) (outOf (V m c main_arg0) (V m c main_arg1)) := by
  rw [Value.flushed2]
  funext y
  show out0_2 (iblk m c 0 t) (iblk m c 1 t) y
    = outOf (V m c main_arg0) (V m c main_arg1) (((cfg0.win 2).blk t).view.emb y)
  refine (congrFun (Pay.out0_2_eq (iblk m c 0 t) (iblk m c 1 t)) y).trans ?_
  rw [iblk0_mat m c t ⟨t.val, point_lt t⟩ rfl, iblk1_mat m c t ⟨t.val, point_lt t⟩ rfl]
  obtain ⟨-, -, -, -, -, -, e0, e1, e2, -⟩ := idx_facts t
  have hy2 : (y 2).val < 2048 := (y 2).isLt
  have hn : (y 2).val / 512 < 4 := by omega
  have hc : (y 2).val % 512 < 512 := Nat.mod_lt _ (by decide)
  have hsplit : (y 2).val = 512 * ((y 2).val / 512) + (y 2).val % 512 := (Nat.div_add_mod _ _).symm
  rw [blockOf_apply _ _ y ⟨(y 2).val / 512, hn⟩ (y 1) ⟨(y 2).val % 512, hc⟩ rfl hsplit]
  refine (outOf_apply _ _ _ ⟨t.val, point_lt t⟩ ⟨(y 2).val / 512, hn⟩ (y 1) ⟨(y 2).val % 512, hc⟩ ?_ ?_ ?_).symm
  · show win0_2.index t (0 : Fin 3) * 1 + 1 * (y 0).val = t.val
    have hy0 : (y 0).val < 1 := (y 0).isLt
    omega
  · show win0_2.index t (1 : Fin 3) * 512 + 1 * (y 1).val = (y 1).val
    omega
  · show win0_2.index t (2 : Fin 3) * 2048 + 1 * (y 2).val = 512 * ((y 2).val / 512) + (y 2).val % 512
    omega

/-- What point `t` writes back to the second output is block `t` of `outOf` of the arguments exchanged. -/
theorem flushed3_eq (c : Dev nD) (t : Fin cfg0.N) :
    (dats m 0 c).flushed 3 t
      = ((cfg0.win 3).blk t).view.read (Elt Ideal) (outOf (V m c main_arg1) (V m c main_arg0)) := by
  rw [Value.flushed3]
  funext y
  show out0_3 (iblk m c 0 t) (iblk m c 1 t) y
    = outOf (V m c main_arg1) (V m c main_arg0) (((cfg0.win 3).blk t).view.emb y)
  refine (congrFun (Pay.out0_3_eq (iblk m c 0 t) (iblk m c 1 t)) y).trans ?_
  rw [iblk0_mat m c t ⟨t.val, point_lt t⟩ rfl, iblk1_mat m c t ⟨t.val, point_lt t⟩ rfl]
  obtain ⟨-, -, -, -, -, -, -, -, -, e0, e1, e2⟩ := idx_facts t
  have hy2 : (y 2).val < 2048 := (y 2).isLt
  have hn : (y 2).val / 512 < 4 := by omega
  have hc : (y 2).val % 512 < 512 := Nat.mod_lt _ (by decide)
  have hsplit : (y 2).val = 512 * ((y 2).val / 512) + (y 2).val % 512 := (Nat.div_add_mod _ _).symm
  rw [blockOf_apply _ _ y ⟨(y 2).val / 512, hn⟩ (y 1) ⟨(y 2).val % 512, hc⟩ rfl hsplit]
  refine (outOf_apply _ _ _ ⟨t.val, point_lt t⟩ ⟨(y 2).val / 512, hn⟩ (y 1) ⟨(y 2).val % 512, hc⟩ ?_ ?_ ?_).symm
  · show win0_3.index t (0 : Fin 3) * 1 + 1 * (y 0).val = t.val
    have hy0 : (y 0).val < 1 := (y 0).isLt
    omega
  · show win0_3.index t (1 : Fin 3) * 512 + 1 * (y 1).val = (y 1).val
    omega
  · show win0_3.index t (2 : Fin 3) * 2048 + 1 * (y 2).val = 512 * ((y 2).val / 512) + (y 2).val % 512
    omega

/-- An index of the first output array is in point `t`'s block iff each coordinate is in the block's range. -/
theorem mem_blk2 (t : Fin cfg0.N) (i : S32x512x2048.Idx) :
    i ∈ ((cfg0.win 2).blk t).view.set ↔ ∀ a : Fin 3, win0_2.index t a * S1x512x2048.size a ≤ (i a).val
      ∧ (i a).val < win0_2.index t a * S1x512x2048.size a + S1x512x2048.size a := by
  show i ∈ ((View.whole main_v0_0).slice (win0_2.rect t)).set ↔ _
  rw [View.set_slice_whole, Rect.mem_set_unit]
  exact Iff.rfl

theorem mem_blk3 (t : Fin cfg0.N) (i : S32x512x2048.Idx) :
    i ∈ ((cfg0.win 3).blk t).view.set ↔ ∀ a : Fin 3, win0_3.index t a * S1x512x2048.size a ≤ (i a).val
      ∧ (i a).val < win0_3.index t a * S1x512x2048.size a + S1x512x2048.size a := by
  show i ∈ ((View.whole main_v0_1).slice (win0_3.rect t)).set ↔ _
  rw [View.set_slice_whole, Rect.mem_set_unit]
  exact Iff.rfl

/-- Every index of the first output array lies in the block of the point its batch coordinate names. -/
theorem cover2 (i : S32x512x2048.Idx) :
    ∃ t : Fin cfg0.N, (cfg0.win 2).flush t = true ∧ i ∈ ((cfg0.win 2).blk t).view.set := by
  have hi0 : (i 0).val < 32 := (i 0).isLt
  have hi1 : (i 1).val < 512 := (i 1).isLt
  have hi2 : (i 2).val < 2048 := (i 2).isLt
  have hN : grid0.N = 32 := N_0
  have ht : (i 0).val < cfg0.N := by show (i 0).val < grid0.N; omega
  obtain ⟨-, -, -, -, -, -, e0, e1, e2, -⟩ := idx_facts ⟨(i 0).val, ht⟩
  have e0' : win0_2.index ⟨(i 0).val, ht⟩ (0 : Fin 3) = (i 0).val := e0
  refine ⟨⟨(i 0).val, ht⟩, flush0_2 _, ?_⟩
  rw [mem_blk2]
  intro a
  match a with
  | ⟨0, _⟩ =>
    show win0_2.index ⟨(i 0).val, ht⟩ (0 : Fin 3) * 1 ≤ (i 0).val ∧ (i 0).val < win0_2.index ⟨(i 0).val, ht⟩ (0 : Fin 3) * 1 + 1
    omega
  | ⟨1, _⟩ =>
    show win0_2.index ⟨(i 0).val, ht⟩ (1 : Fin 3) * 512 ≤ (i 1).val ∧ (i 1).val < win0_2.index ⟨(i 0).val, ht⟩ (1 : Fin 3) * 512 + 512
    omega
  | ⟨2, _⟩ =>
    show win0_2.index ⟨(i 0).val, ht⟩ (2 : Fin 3) * 2048 ≤ (i 2).val ∧ (i 2).val < win0_2.index ⟨(i 0).val, ht⟩ (2 : Fin 3) * 2048 + 2048
    omega

theorem cover3 (i : S32x512x2048.Idx) :
    ∃ t : Fin cfg0.N, (cfg0.win 3).flush t = true ∧ i ∈ ((cfg0.win 3).blk t).view.set := by
  have hi0 : (i 0).val < 32 := (i 0).isLt
  have hi1 : (i 1).val < 512 := (i 1).isLt
  have hi2 : (i 2).val < 2048 := (i 2).isLt
  have hN : grid0.N = 32 := N_0
  have ht : (i 0).val < cfg0.N := by show (i 0).val < grid0.N; omega
  obtain ⟨-, -, -, -, -, -, -, -, -, e0, e1, e2⟩ := idx_facts ⟨(i 0).val, ht⟩
  have e0' : win0_3.index ⟨(i 0).val, ht⟩ (0 : Fin 3) = (i 0).val := e0
  refine ⟨⟨(i 0).val, ht⟩, flush0_3 _, ?_⟩
  rw [mem_blk3]
  intro a
  match a with
  | ⟨0, _⟩ =>
    show win0_3.index ⟨(i 0).val, ht⟩ (0 : Fin 3) * 1 ≤ (i 0).val ∧ (i 0).val < win0_3.index ⟨(i 0).val, ht⟩ (0 : Fin 3) * 1 + 1
    omega
  | ⟨1, _⟩ =>
    show win0_3.index ⟨(i 0).val, ht⟩ (1 : Fin 3) * 512 ≤ (i 1).val ∧ (i 1).val < win0_3.index ⟨(i 0).val, ht⟩ (1 : Fin 3) * 512 + 512
    omega
  | ⟨2, _⟩ =>
    show win0_3.index ⟨(i 0).val, ht⟩ (2 : Fin 3) * 2048 ≤ (i 2).val ∧ (i 2).val < win0_3.index ⟨(i 0).val, ht⟩ (2 : Fin 3) * 2048 + 2048
    omega

/-- The first output array after the run. -/
theorem final2 (c : Dev nD) :
    (dats m 0 c).arrAt 2 cfg0.N = outOf (m ((c : Thread nD τ).loc main_arg0)) (m ((c : Thread nD τ).loc main_arg1)) :=
  (dats m 0 c).arrAt_eq_of_cover 2 (outOf (V m c main_arg0) (V m c main_arg1)) (fun t _ => flushed2_eq m c t) cover2

/-- The second output array after the run. -/
theorem final3 (c : Dev nD) :
    (dats m 0 c).arrAt 3 cfg0.N = outOf (m ((c : Thread nD τ).loc main_arg1)) (m ((c : Thread nD τ).loc main_arg0)) :=
  (dats m 0 c).arrAt_eq_of_cover 3 (outOf (V m c main_arg1) (V m c main_arg0)) (fun t _ => flushed3_eq m c t) cover3

/-- The kernel's run with both output arrays read: the co-attention of the arguments, and of the arguments exchanged. -/
theorem run : θ_run defs (onTc (τ := τ) (main (F := Ideal))) ⟨m, fun _ => 0, ρ⟩ fun r => ∀ c : Dev nD,
      r.2.mem ((c : Thread nD τ).loc main_v0_0) = outOf (m ((c : Thread nD τ).loc main_arg0)) (m ((c : Thread nD τ).loc main_arg1))
      ∧ r.2.mem ((c : Thread nD τ).loc main_v0_1) = outOf (m ((c : Thread nD τ).loc main_arg1)) (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final2 m c), (h c).2.1.trans (final3 m c), (h c).2.2⟩)
    (Value.run_blocks m ρ)

end Cert.KernelIdeal.Arr

end
-- ==== Proof.RefStages.lean ====
/-
  The reference read at coordinates, on the extended reals: both results are the co-attention stacks.

  With `x = sliceOf A bt` and `z = sliceOf B bt` the batched score product at `(bt, r, c)` is `score x z r c`. The
  softmax over the last axis (maximum, shifted exponential, sum, quotient, each reduction kept and broadcast back)
  gives `weight (score x z) r c`, and the second batched product `attend x z`. The softmax over the middle axis runs
  down the columns of the same scores; a column of `score x z` is a row of `score z x` (`score_comm`), so it gives
  `weight (score z x) c r`, and the third product, contracting the row axis, `attend z x`. Each result concatenates
  four 512-wide slabs along the last axis: `outOf A B` and `outOf B A`.
-/
import proofs.«100737_j74878459838619_2_alg».proof.Proof.RefRead
import proofs.«100737_j74878459838619_2_alg».proof.Proof.Spec
import proofs.«100737_j74878459838619_2_alg».proof.Proof.LibRowMax
import Idealize.ShloMosaic.Lib.ValueIdx
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx Cert.CoAttn

/-- Two indices with equal coordinates are equal. -/
theorem ix3_ext {n0 n1 n2 : ℕ} (i j : (⟨3, ![n0, n1, n2]⟩ : Shape).Idx) (h0 : (i 0).val = (j 0).val)
    (h1 : (i 1).val = (j 1).val) (h2 : (i 2).val = (j 2).val) : i = j :=
  funext fun a => Fin.ext (by
    match a with
    | ⟨0, _⟩ => exact h0
    | ⟨1, _⟩ => exact h1
    | ⟨2, _⟩ => exact h2)
theorem ix2_ext {n0 n1 : ℕ} (i j : (⟨2, ![n0, n1]⟩ : Shape).Idx) (h0 : (i 0).val = (j 0).val)
    (h1 : (i 1).val = (j 1).val) : i = j :=
  funext fun a => Fin.ext (by
    match a with
    | ⟨0, _⟩ => exact h0
    | ⟨1, _⟩ => exact h1)

/-- A stack of 32 matrices. -/
abbrev Arr : Type := (⟨S32x512x512, .f32⟩ : BufTy).Contents (Elt Ideal)

variable (A B : Arr)

/-! ## The scores -/

theorem v0_apply (bt : Fin 32) (r c : Fin 512) :
    val_main_v0 (F := Ideal) A B (ix3 bt r c) = score (sliceOf A bt) (sliceOf B bt) r c := by
  rw [val_main_v0_apply]
  show _ = ∑ k : Fin 512, sliceOf A bt r k * sliceOf B bt c k
  refine Finset.sum_congr rfl fun k _ => ?_
  rw [show lidx_main_v0 (ix3 bt r c) k = ix3 bt r k from ix3_ext _ _ rfl rfl rfl,
    show ridx_main_v0 (ix3 bt r c) k = ix3 bt c k from ix3_ext _ _ rfl rfl rfl]
  rfl

/-- The same entry as an entry of the transposed scores. -/
theorem v0T_apply (bt : Fin 32) (r c : Fin 512) :
    val_main_v0 (F := Ideal) A B (ix3 bt r c) = score (sliceOf B bt) (sliceOf A bt) c r :=
  (v0_apply A B bt r c).trans (score_comm _ _ r c)

/-! ## The softmax over the last axis, and the first attended stack -/

theorem v3_apply (bt : Fin 32) (r : Fin 512) :
    val_main_v3 (F := Ideal) A B (ix2 bt r) = rowMax (score (sliceOf A bt) (sliceOf B bt)) r := by
  rw [val_main_v3_apply, val_main_v2_apply]
  show max negInf (val_main_v1 (F := Ideal) A B (ix2 bt r)) = max negInf _
  refine congrArg (max negInf) ?_
  unfold val_main_v1
  refine (LibRowMax.hostReduce_maximumf_single _ _ reducesTo_S32x512x512_S32x512_d2 (by decide) h_S_ (ix2 bt r)).trans ?_
  refine congrArg (fun f => (Finset.univ : Finset (Fin 512)).fold max negInf f) (funext fun k => ?_)
  exact (congrArg (val_main_v0 (F := Ideal) A B) (ix3_ext _ (ix3 bt r k) (by rfl) (by rfl) (by rfl))).trans (v0_apply A B bt r k)

theorem v5_apply (bt : Fin 32) (r c : Fin 512) :
    val_main_v5 (F := Ideal) A B (ix3 bt r c) = rowMax (score (sliceOf A bt) (sliceOf B bt)) r := by
  rw [val_main_v5_apply, val_main_v4_apply]
  exact (congrArg (val_main_v3 (F := Ideal) A B) (ix2_ext _ (ix2 bt r) (by rfl) (by rfl))).trans (v3_apply A B bt r)

theorem v7_apply (bt : Fin 32) (r c : Fin 512) :
    val_main_v7 (F := Ideal) A B (ix3 bt r c) = expo (score (sliceOf A bt) (sliceOf B bt)) r c := by
  rw [val_main_v7_apply, val_main_v6_apply]
  show Ideal.exp (val_main_v0 (F := Ideal) A B (ix3 bt r c) - val_main_v5 (F := Ideal) A B (ix3 bt r c))
    = Ideal.exp (score (sliceOf A bt) (sliceOf B bt) r c - rowMax (score (sliceOf A bt) (sliceOf B bt)) r)
  rw [v0_apply, v5_apply]

theorem v8_apply (bt : Fin 32) (r : Fin 512) :
    val_main_v8 (F := Ideal) A B (ix2 bt r) = rowSum (score (sliceOf A bt) (sliceOf B bt)) r := by
  rw [val_main_v8_apply]
  show Ideal.ofBits .f32 0x00000000#32 + ∑ k : Fin 512, val_main_v7 (F := Ideal) A B (idx_main_v8 (ix2 bt r) k)
    = ∑ k : Fin 512, expo (score (sliceOf A bt) (sliceOf B bt)) r k
  rw [Ideal.ofBits_zero_f32, zero_add]
  refine Finset.sum_congr rfl fun k _ => ?_
  exact (congrArg (val_main_v7 (F := Ideal) A B) (ix3_ext _ (ix3 bt r k) (by rfl) (by rfl) (by rfl))).trans (v7_apply A B bt r k)

theorem v10_apply (bt : Fin 32) (r c : Fin 512) :
    val_main_v10 (F := Ideal) A B (ix3 bt r c) = rowSum (score (sliceOf A bt) (sliceOf B bt)) r := by
  rw [val_main_v10_apply, val_main_v9_apply]
  exact (congrArg (val_main_v8 (F := Ideal) A B) (ix2_ext _ (ix2 bt r) (by rfl) (by rfl))).trans (v8_apply A B bt r)

theorem v11_apply (bt : Fin 32) (r c : Fin 512) :
    val_main_v11 (F := Ideal) A B (ix3 bt r c) = weight (score (sliceOf A bt) (sliceOf B bt)) r c := by
  rw [val_main_v11_apply]
  show Ideal.div (val_main_v7 (F := Ideal) A B (ix3 bt r c)) (val_main_v10 (F := Ideal) A B (ix3 bt r c))
    = Ideal.div (expo (score (sliceOf A bt) (sliceOf B bt)) r c) (rowSum (score (sliceOf A bt) (sliceOf B bt)) r)
  rw [v7_apply, v10_apply]

theorem v12_apply (bt : Fin 32) (r d : Fin 512) :
    val_main_v12 (F := Ideal) A B (ix3 bt r d) = attend (sliceOf A bt) (sliceOf B bt) r d := by
  rw [val_main_v12_apply]
  show _ = ∑ k : Fin 512, weight (score (sliceOf A bt) (sliceOf B bt)) r k * sliceOf B bt k d
  refine Finset.sum_congr rfl fun k _ => ?_
  rw [show lidx_main_v12 (ix3 bt r d) k = ix3 bt r k from ix3_ext _ _ rfl rfl rfl,
    show ridx_main_v12 (ix3 bt r d) k = ix3 bt k d from ix3_ext _ _ rfl rfl rfl, v11_apply]
  rfl

/-! ## The softmax over the middle axis, and the second attended stack -/

theorem v15_apply (bt : Fin 32) (c : Fin 512) :
    val_main_v15 (F := Ideal) A B (ix2 bt c) = rowMax (score (sliceOf B bt) (sliceOf A bt)) c := by
  rw [val_main_v15_apply, val_main_v14_apply]
  show max negInf (val_main_v13 (F := Ideal) A B (ix2 bt c)) = max negInf _
  refine congrArg (max negInf) ?_
  unfold val_main_v13
  refine (LibRowMax.hostReduce_maximumf_single _ _ reducesTo_S32x512x512_S32x512_d1 (by decide) h_S_ (ix2 bt c)).trans ?_
  refine congrArg (fun f => (Finset.univ : Finset (Fin 512)).fold max negInf f) (funext fun k => ?_)
  exact (congrArg (val_main_v0 (F := Ideal) A B) (ix3_ext _ (ix3 bt k c) (by rfl) (by rfl) (by rfl))).trans (v0T_apply A B bt k c)

theorem v17_apply (bt : Fin 32) (r c : Fin 512) :
    val_main_v17 (F := Ideal) A B (ix3 bt r c) = rowMax (score (sliceOf B bt) (sliceOf A bt)) c := by
  rw [val_main_v17_apply, val_main_v16_apply]
  exact (congrArg (val_main_v15 (F := Ideal) A B) (ix2_ext _ (ix2 bt c) (by rfl) (by rfl))).trans (v15_apply A B bt c)

theorem v19_apply (bt : Fin 32) (r c : Fin 512) :
    val_main_v19 (F := Ideal) A B (ix3 bt r c) = expo (score (sliceOf B bt) (sliceOf A bt)) c r := by
  rw [val_main_v19_apply, val_main_v18_apply]
  show Ideal.exp (val_main_v0 (F := Ideal) A B (ix3 bt r c) - val_main_v17 (F := Ideal) A B (ix3 bt r c))
    = Ideal.exp (score (sliceOf B bt) (sliceOf A bt) c r - rowMax (score (sliceOf B bt) (sliceOf A bt)) c)
  rw [v0T_apply, v17_apply]

theorem v20_apply (bt : Fin 32) (c : Fin 512) :
    val_main_v20 (F := Ideal) A B (ix2 bt c) = rowSum (score (sliceOf B bt) (sliceOf A bt)) c := by
  rw [val_main_v20_apply]
  show Ideal.ofBits .f32 0x00000000#32 + ∑ k : Fin 512, val_main_v19 (F := Ideal) A B (idx_main_v20 (ix2 bt c) k)
    = ∑ k : Fin 512, expo (score (sliceOf B bt) (sliceOf A bt)) c k
  rw [Ideal.ofBits_zero_f32, zero_add]
  refine Finset.sum_congr rfl fun k _ => ?_
  exact (congrArg (val_main_v19 (F := Ideal) A B) (ix3_ext _ (ix3 bt k c) (by rfl) (by rfl) (by rfl))).trans (v19_apply A B bt k c)

theorem v22_apply (bt : Fin 32) (r c : Fin 512) :
    val_main_v22 (F := Ideal) A B (ix3 bt r c) = rowSum (score (sliceOf B bt) (sliceOf A bt)) c := by
  rw [val_main_v22_apply, val_main_v21_apply]
  exact (congrArg (val_main_v20 (F := Ideal) A B) (ix2_ext _ (ix2 bt c) (by rfl) (by rfl))).trans (v20_apply A B bt c)

theorem v23_apply (bt : Fin 32) (r c : Fin 512) :
    val_main_v23 (F := Ideal) A B (ix3 bt r c) = weight (score (sliceOf B bt) (sliceOf A bt)) c r := by
  rw [val_main_v23_apply]
  show Ideal.div (val_main_v19 (F := Ideal) A B (ix3 bt r c)) (val_main_v22 (F := Ideal) A B (ix3 bt r c))
    = Ideal.div (expo (score (sliceOf B bt) (sliceOf A bt)) c r) (rowSum (score (sliceOf B bt) (sliceOf A bt)) c)
  rw [v19_apply, v22_apply]

theorem v24_apply (bt : Fin 32) (j d : Fin 512) :
    val_main_v24 (F := Ideal) A B (ix3 bt j d) = attend (sliceOf B bt) (sliceOf A bt) j d := by
  rw [val_main_v24_apply]
  show _ = ∑ k : Fin 512, weight (score (sliceOf B bt) (sliceOf A bt)) j k * sliceOf A bt k d
  refine Finset.sum_congr rfl fun k _ => ?_
  rw [show lidx_main_v24 (ix3 bt j d) k = ix3 bt k j from ix3_ext _ _ rfl rfl rfl,
    show ridx_main_v24 (ix3 bt j d) k = ix3 bt k d from ix3_ext _ _ rfl rfl rfl, v23_apply]
  rfl

/-! ## Four slabs side by side -/

/-- One of four stacks, by number. -/
def pick (P0 P1 P2 P3 : Arr) (n : Fin 4) : Arr :=
  match n with
  | 0 => P0
  | 1 => P1
  | 2 => P2
  | 3 => P3

/-- Four stacks concatenated along the last axis, at lane `512 n + c`: stack `n` at lane `c`. -/
theorem concat4_apply (P0 P1 P2 P3 : Arr) (bt : Fin 32) (r : Fin 512) (l : Fin 2048) (n : Fin 4) (c : Fin 512)
    (hl : l.val = 512 * n.val + c.val) :
    concatenate (α := Elt Ideal .f32) S32x512x2048 2 [⟨S32x512x512, P0⟩, ⟨S32x512x512, P1⟩, ⟨S32x512x512, P2⟩, ⟨S32x512x512, P3⟩]
      concatenates_S32x512x512_S32x512x512_S32x512x512_S32x512x512_S32x512x2048_d2 (ix3 bt r l) = pick P0 P1 P2 P3 n (ix3 bt r c) := by
  have hoff : ∀ b : Fin S32x512x512.rank, b.cast (rfl : S32x512x512.rank = S32x512x2048.rank) ≠ 2 →
      ((ix3 bt r c : S32x512x512.Idx) b).val = ((ix3 bt r l : S32x512x2048.Idx) (b.cast rfl)).val := fun b hb => by
    match b with
    | ⟨0, _⟩ => rfl
    | ⟨1, _⟩ => rfl
    | ⟨2, _⟩ => exact absurd rfl hb
  match n, hl with
  | ⟨0, _⟩, hl =>
    have hl' : l.val = 512 * 0 + c.val := hl
    exact concatenate_apply_piece 2 _ _ (ix3 bt r l) 0 (by show (0 : ℕ) < 4; omega) S32x512x512 P0 rfl rfl 0 rfl (ix3 bt r c) hoff
      (by show 0 + c.val = l.val; omega)
  | ⟨1, _⟩, hl =>
    have hl' : l.val = 512 * 1 + c.val := hl
    exact concatenate_apply_piece 2 _ _ (ix3 bt r l) 1 (by show (1 : ℕ) < 4; omega) S32x512x512 P1 rfl rfl 512 rfl (ix3 bt r c) hoff
      (by show 512 + c.val = l.val; omega)
  | ⟨2, _⟩, hl =>
    have hl' : l.val = 512 * 2 + c.val := hl
    exact concatenate_apply_piece 2 _ _ (ix3 bt r l) 2 (by show (2 : ℕ) < 4; omega) S32x512x512 P2 rfl rfl 1024 rfl (ix3 bt r c) hoff
      (by show 1024 + c.val = l.val; omega)
  | ⟨3, _⟩, hl =>
    have hl' : l.val = 512 * 3 + c.val := hl
    exact concatenate_apply_piece 2 _ _ (ix3 bt r l) 3 (by show (3 : ℕ) < 4; omega) S32x512x512 P3 rfl rfl 1536 rfl (ix3 bt r c) hoff
      (by show 1536 + c.val = l.val; omega)

/-- The four operands of the first concatenation are the four slabs of `x = A bt` and `attend x z`. -/
theorem pick27 (bt : Fin 32) (n : Fin 4) (r c : Fin 512) :
    pick A (val_main_v12 (F := Ideal) A B) (val_main_v25 (F := Ideal) A B) (val_main_v26 (F := Ideal) A B) n (ix3 bt r c)
      = slab (sliceOf A bt) (attend (sliceOf A bt) (sliceOf B bt)) n r c := by
  match n with
  | ⟨0, _⟩ => rfl
  | ⟨1, _⟩ => exact v12_apply A B bt r c
  | ⟨2, _⟩ =>
    show (A (ix3 bt r c) : EReal) - val_main_v12 (F := Ideal) A B (ix3 bt r c) = sliceOf A bt r c - attend (sliceOf A bt) (sliceOf B bt) r c
    rw [v12_apply]; rfl
  | ⟨3, _⟩ =>
    show (A (ix3 bt r c) : EReal) * val_main_v12 (F := Ideal) A B (ix3 bt r c) = sliceOf A bt r c * attend (sliceOf A bt) (sliceOf B bt) r c
    rw [v12_apply]; rfl

/-- … and of the second, the four slabs of `z = B bt` and `attend z x`. -/
theorem pick30 (bt : Fin 32) (n : Fin 4) (r c : Fin 512) :
    pick B (val_main_v24 (F := Ideal) A B) (val_main_v28 (F := Ideal) A B) (val_main_v29 (F := Ideal) A B) n (ix3 bt r c)
      = slab (sliceOf B bt) (attend (sliceOf B bt) (sliceOf A bt)) n r c := by
  match n with
  | ⟨0, _⟩ => rfl
  | ⟨1, _⟩ => exact v24_apply A B bt r c
  | ⟨2, _⟩ =>
    show (B (ix3 bt r c) : EReal) - val_main_v24 (F := Ideal) A B (ix3 bt r c) = sliceOf B bt r c - attend (sliceOf B bt) (sliceOf A bt) r c
    rw [v24_apply]; rfl
  | ⟨3, _⟩ =>
    show (B (ix3 bt r c) : EReal) * val_main_v24 (F := Ideal) A B (ix3 bt r c) = sliceOf B bt r c * attend (sliceOf B bt) (sliceOf A bt) r c
    rw [v24_apply]; rfl

/-- The reference's first result is the co-attention stack of `(A, B)`. -/
theorem v27_eq : val_main_v27 (F := Ideal) A B = outOf A B := by
  funext i
  obtain ⟨bt, r, l, rfl⟩ : ∃ (bt : Fin 32) (r : Fin 512) (l : Fin 2048), i = ix3 bt r l := ⟨i 0, i 1, i 2, eq_ix3 i⟩
  have hl2 : l.val < 2048 := l.isLt
  have hn : l.val / 512 < 4 := by omega
  have hc : l.val % 512 < 512 := Nat.mod_lt _ (by decide)
  have hsplit : l.val = 512 * (l.val / 512) + l.val % 512 := (Nat.div_add_mod _ _).symm
  rw [outOf_apply A B (ix3 bt r l) bt ⟨l.val / 512, hn⟩ r ⟨l.val % 512, hc⟩ rfl rfl hsplit]
  unfold val_main_v27
  exact (concat4_apply _ _ _ _ bt r l ⟨l.val / 512, hn⟩ ⟨l.val % 512, hc⟩ hsplit).trans (pick27 A B bt _ r _)

/-- The reference's second result is the co-attention stack of `(B, A)`. -/
theorem v30_eq : val_main_v30 (F := Ideal) A B = outOf B A := by
  funext i
  obtain ⟨bt, r, l, rfl⟩ : ∃ (bt : Fin 32) (r : Fin 512) (l : Fin 2048), i = ix3 bt r l := ⟨i 0, i 1, i 2, eq_ix3 i⟩
  have hl2 : l.val < 2048 := l.isLt
  have hn : l.val / 512 < 4 := by omega
  have hc : l.val % 512 < 512 := Nat.mod_lt _ (by decide)
  have hsplit : l.val = 512 * (l.val / 512) + l.val % 512 := (Nat.div_add_mod _ _).symm
  rw [outOf_apply B A (ix3 bt r l) bt ⟨l.val / 512, hn⟩ r ⟨l.val % 512, hc⟩ rfl rfl hsplit]
  unfold val_main_v30
  exact (concat4_apply _ _ _ _ bt r l ⟨l.val / 512, hn⟩ ⟨l.val % 512, hc⟩ hsplit).trans (pick30 A B bt _ r _)

end Cert.ReferenceIdeal.RefValue

end
-- ==== Proof.lean ====
/-
  Dual-direction softmax co-attention: the kernel against its jnp reference, on the extended reals.

  For each of 32 pairs of 512 × 512 matrices `x = A[bt]`, `z = B[bt]` both programs return two stacks whose rows are
  four slabs wide:
    first result   `[x, y, x − y, x * y]`  with `y = attend x z` (the rows of `x` attending, by a row softmax of their
                                           scores against the rows of `z`, over the rows of `z`),
    second result  `[z, w, z − w, z * w]`  with `w = attend z x`.
  The reference takes its second softmax down the COLUMNS of the one score matrix of `(x, z)`; the kernel computes the
  scores of `(z, x)` afresh and takes row softmaxes only. A column of the scores of `(x, z)` is a row of the scores of
  `(z, x)` because the product of extended reals commutes (`Cert.CoAttn.score_comm`); nothing else separates the two
  programs (rounding to bf16 is the identity on the extended reals; a matrix product into a zero accumulator, a lane
  reduction and the host's reduction are the same sums and maxima), so no law that needs finite inputs is used and the
  precondition is never opened.

  The kernel's side: each output block is the four slabs of its input blocks (KernelPay, KernelBlock), block `t` of the
  grid is pair `t`, and the 32 blocks cover the arrays (KernelArray). The reference's side: its stages read at
  coordinates (RefStages), over its run. Both arrive at `Cert.CoAttn.outOf` (Spec). The idealization rewrote nothing, so
  `preserves` is `True`.
-/
import proofs.«100737_j74878459838619_2_alg».proof.Defs
import proofs.«100737_j74878459838619_2_alg».proof.Proof.Gen.Kernel
import proofs.«100737_j74878459838619_2_alg».proof.Proof.Gen.Kernel.Frame
import proofs.«100737_j74878459838619_2_alg».proof.Proof.Gen.KernelIdeal
import proofs.«100737_j74878459838619_2_alg».proof.Proof.Gen.KernelIdeal.Frame
import proofs.«100737_j74878459838619_2_alg».proof.Proof.Gen.ReferenceIdeal
import proofs.«100737_j74878459838619_2_alg».proof.Proof.Gen.Pre_finite_inputs
import proofs.«100737_j74878459838619_2_alg».proof.Proof.KernelArray
import proofs.«100737_j74878459838619_2_alg».proof.Proof.RefStages
import Idealize.ShloMosaic.Adequacy
import Idealize.ShloMosaic.Init

noncomputable section

namespace Cert.Proof

open Idealize.ShloMosaic Idealize.ShloMosaic.TcCoe Idealize.SL.Sem Cert.CoAttn

/-- The word-level kernel runs and leaves its arguments as they were. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference runs and leaves its arguments as they were: its run, with the two results forgotten. -/
theorem frame_ri : Cert.frame_ReferenceIdeal := fun m ρ _ =>
  (θ_run Cert.ReferenceIdeal.defs _ _).mono (fun _ h c => (h c).2.2) (Cert.ReferenceIdeal.Value.run (F := Ideal) m ρ)

/-- Nothing was rewritten between the kernel and its reading on the extended reals. -/
theorem preserves : Cert.preserves_Kernel_KernelIdeal := trivial

/-- From memories that agree on the two arguments both programs end with the co-attention stacks of `(A, B)` and of
    `(B, A)`: the kernel by its blocks, the reference by its stages. -/
theorem algebraic : Cert.algebraic_KernelIdeal_ReferenceIdeal := by
  intro m ρ m' ρ' _ hagree
  refine ⟨fun c => outOf (m ((c.tc : Thread Cert.KernelIdeal.nD Cert.KernelIdeal.τ).loc Cert.KernelIdeal.main_arg0))
        (m ((c.tc : Thread Cert.KernelIdeal.nD Cert.KernelIdeal.τ).loc Cert.KernelIdeal.main_arg1)),
      fun c => outOf (m ((c.tc : Thread Cert.KernelIdeal.nD Cert.KernelIdeal.τ).loc Cert.KernelIdeal.main_arg1))
        (m ((c.tc : Thread Cert.KernelIdeal.nD Cert.KernelIdeal.τ).loc Cert.KernelIdeal.main_arg0)),
      Cert.KernelIdeal.Arr.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v27_eq, Cert.ReferenceIdeal.RefValue.v27_eq, (hagree c).1, (hagree c).2]
  · rw [(h c).2.1, Cert.ReferenceIdeal.Read.val_main_v30_eq, Cert.ReferenceIdeal.RefValue.v30_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
